-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024x1 : Shape := ⟨2, ![1024, 1]⟩
abbrev S8x8192 : Shape := ⟨2, ![8, 8192]⟩
abbrev S1024 : Shape := ⟨1, ![1024]⟩
abbrev S8192 : Shape := ⟨1, ![8192]⟩
abbrev S8192x1 : Shape := ⟨2, ![8192, 1]⟩
abbrev S1x8192 : Shape := ⟨2, ![1, 8192]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S8192x64, .f32⟩
  | .local _ .vmem, ⟨3, _⟩ => ⟨S1024x1024, .f32⟩
  | .local _ .vmem, ⟨4, _⟩ => ⟨S1024x1024, .f32⟩
  | .local _ .vmem, ⟨5, _⟩ => ⟨S1024x1, .f32⟩
  | .local _ .vmem, ⟨6, _⟩ => ⟨S8x8192, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k0_off2 (i : grid0.Coords) : Fin 2 → Nat :=
  let c0_3 : Index := 0#32
  let arg1 : BitVec 32 := BitVec.ofNat 32 (i 1).val
  let c1024_i32 : BitVec 32 := 1024#32
  let v4 : BitVec 32 := Scalar.muli arg1 c1024_i32
  let v5 : BitVec 32 := v4
  let v11 : Index := Scalar.indexCast v5
  ![0, v11.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S8192x1 : S8192.ShapeCasts S8192x1
  transposes_S8192x1_p1_0_S1x8192 : S8192x1.Transposes [1, 0] S1x8192
  shapeCasts_S1x8192_S1x8192 : S1x8192.ShapeCasts S1x8192
  broadcasts_S1x8192_S8x8192 : S1x8192.Broadcasts S8x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  bitsLt_bf16_f32 : FTy.bits .bf16 < FTy.bits .f32
  h_S1x1024 : 0 < S1x1024.numel
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x64.size a ≤ S8192x64.size a
  k0_off2_inb : ∀ i : grid0.Coords, ∀ a, (k0_off2 i) a + S1x1024.size a ≤ S8x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.RbfSpec.lean ====
/-
  The Gaussian (radial basis function) kernel matrix of two point sets.

  Two sets of 8192 points with 64 coordinates each are the rows of `A` and `B`. Entry `(n, m)` of the result is
  `1 · exp (-(1/2) · max (‖A n‖² + ‖B m‖² - 2 · ⟨A n, B m⟩) 0)`: the squared distance of row `n` of `A` and row `m` of `B`,
  expanded by the polarisation identity and clamped at zero, under the Gaussian. On the extended reals nothing here
  is rearranged: both programs compute the three sums and then this expression of them, entry by entry, so the
  statement holds for every input, infinite entries included.
-/
import Idealize.ShloMosaic.PureOps.Ideal
import Idealize.ShloMosaic.PureOps.Ideal.Laws
import Idealize.ShloMosaic.Lib.ValueIdx

noncomputable section

namespace Cert.RbfSpec

open Idealize.ShloMosaic Idealize.ShloMosaic.ValueIdx

/-- A point set: 8192 points, 64 coordinates each. -/
abbrev Pts : Type := (⟨2, ![8192, 64]⟩ : Shape).Idx → EReal
/-- The matrix of all pairs. -/
abbrev Gram : Type := (⟨2, ![8192, 8192]⟩ : Shape).Idx → EReal

/-- The squared norm of row `r`. -/
def sqnorm (X : Pts) (r : Fin 8192) : EReal := ∑ k : Fin 64, X (ix2 r k) * X (ix2 r k)

/-- The inner product of row `n` of `A` and row `m` of `B`. -/
def cross (A B : Pts) (n m : Fin 8192) : EReal := ∑ k : Fin 64, A (ix2 n k) * B (ix2 m k)

/-- One entry from its three sums: `1 · exp (-(1/2) · max ((s₁ + s₂) - 2 · c) 0)`, the four constants as the float
    words both programs print (2, 0, -1/2, 1). -/
def rbf (s1 s2 cr : EReal) : EReal :=
  Ideal.ofBits .f32 0x3F800000#32 * Ideal.exp (Ideal.ofBits .f32 0xBF000000#32 *
    max ((s1 + s2) - Ideal.ofBits .f32 0x40000000#32 * cr) (Ideal.ofBits .f32 0x00000000#32))

/-- The kernel matrix. -/
def G (A B : Pts) : Gram := fun i => rbf (sqnorm A (i 0)) (sqnorm B (i 1)) (cross A B (i 0) (i 1))

theorem G_apply (A B : Pts) (n m : Fin 8192) :
    G A B (ix2 n m) = rbf (sqnorm A n) (sqnorm B m) (cross A B n m) := rfl

end Cert.RbfSpec

end
-- ==== Proof.RbfRef.lean ====
/-
  The reference program's result is the kernel matrix of the specification.

  The reference computes, on the host, the two vectors of squared row norms (a product and a sum over the 64
  coordinates, started from the zero word), the 8192 × 8192 matrix of inner products (one contraction of the two
  arguments over the coordinate axis), lays the first vector down the rows and the second along the columns, and
  applies `1 · exp (-(1/2) · max ((s₁ + s₂) - 2 · c) 0)` entry by entry. Read at an index, each stage is the
  stage before it at an index, so the result at `(n, m)` is the specification's entry.
-/
import proofs.«172381_j58720792871618_2_alg».proof.Proof.Gen.ReferenceIdeal.Read
import proofs.«172381_j58720792871618_2_alg».proof.Proof.RbfSpec

noncomputable section

namespace Cert.RbfRef

open Cert.ReferenceIdeal Cert.ReferenceIdeal.Read Idealize.ShloMosaic Idealize.ShloMosaic.ValueIdx Cert.RbfSpec

/-- The last stage of the reference, as a function of the two arguments, is `G`. -/
theorem ref_eq (x0 x1 : Pts) : val_main_v19 (F := Ideal) x0 x1 = G x0 x1 := by
  funext i
  have e1 : ∀ k : Fin 64, idx_main_v1 (idx_main_v5 (idx_main_v7 i)) k = ix2 (i 0) k := fun k =>
    funext fun a => Fin.ext (by match a with | ⟨0, _⟩ => rfl | ⟨1, _⟩ => rfl)
  have e3 : ∀ k : Fin 64, idx_main_v3 (idx_main_v6 (idx_main_v8 i)) k = ix2 (i 1) k := fun k =>
    funext fun a => Fin.ext (by match a with | ⟨0, _⟩ => rfl | ⟨1, _⟩ => rfl)
  have el : ∀ k : Fin 64, lidx_main_v4 i k = ix2 (i 0) k := fun k =>
    funext fun a => Fin.ext (by match a with | ⟨0, _⟩ => rfl | ⟨1, _⟩ => rfl)
  have er : ∀ k : Fin 64, ridx_main_v4 i k = ix2 (i 1) k := fun k =>
    funext fun a => Fin.ext (by match a with | ⟨0, _⟩ => rfl | ⟨1, _⟩ => rfl)
  rw [val_main_v19_apply, val_main_v18_apply, val_main_cst_4_apply, val_main_v17_apply, val_main_v16_apply,
    val_main_v15_apply, val_main_cst_3_apply, val_main_v14_apply, val_main_v13_apply, val_main_cst_2_apply,
    val_main_v12_apply, val_main_v11_apply, val_main_v10_apply, val_main_cst_1_apply, val_main_v9_apply,
    val_main_v8_apply, val_main_v7_apply, val_main_v6_apply, val_main_v5_apply, val_main_v4_apply,
    val_main_v3_apply, val_main_v1_apply, val_main_cst_apply, val_main_cst_0_apply]
  simp only [val_main_v0, val_main_v2, ValueIdx.mulf_apply, e1, e3, el, er, Ideal.mulf_def, Ideal.addf_def, Ideal.subf_def,
    Ideal.maximumf_def, Ideal.hostUnary_exp_def, Ideal.ofBits_def, Ideal.ofBits_zero_f32, zero_add,
    G, rbf, sqnorm, cross]
  rfl

end Cert.RbfRef

end
-- ==== Proof.RbfPieces.lean ====
/-
  What one grid point's body leaves behind, as the body's arithmetic of what it loaded.

  The body stores each buffer whole, once. At a point that starts a row of the grid (column coordinate 0) it first
  fills the two carried buffers — the squared norms of the rows of its block of the first argument, as a column, and the
  squared norms of all rows of the second argument, laid along 8 identical rows — and then reads both back; at every
  other point it only reads them. In both cases the output block is the same arithmetic of four values: the block of
  the first argument, the rows of the second argument that the point's column coordinate selects, the matching stretch of
  the first row of the second carried buffer, and the first carried buffer.
-/
import proofs.«172381_j58720792871618_2_alg».proof.Proof.Gen.KernelIdeal.Frame
import Idealize.ShloMosaic.Lib.Pipeline.Value

set_option maxRecDepth 16384

noncomputable section

namespace Cert.RbfPieces

open Cert.KernelIdeal Cert.KernelIdeal.Gen Idealize.ShloMosaic Idealize.ShloMosaic.TcCoe Idealize.ShloMosaic.Tactic
open Idealize.SL Idealize.SL.Sem

variable {F : FTy → Type} [FloatOps F]

/-- The offsets of a whole-buffer rectangle are zero on both axes. -/
theorem zero_offsets : (![0, 0] : Fin 2 → Nat) = fun _ => 0 :=
  funext fun a => by match a with | ⟨0, _⟩ => rfl | ⟨1, _⟩ => rfl

/-- The rows of the second argument a point reads: 1024 consecutive rows from 1024 times its column coordinate. -/
abbrev rowsOf (i : grid0.Coords) (x1 : Vec F S8192x64 .f32) : Vec F S1024x64 .f32 :=
  View.ld x1 (Rect.unit (s := S8192x64) (k0_off1 i) S1024x64.size (k0_off1_inb i))

/-- The stretch of the second carried buffer a point reads: row 0, 1024 consecutive columns from 1024 times its column
    coordinate. -/
abbrev stretchOf (i : grid0.Coords) (xs1 : Vec F S8x8192 .f32) : Vec F S1x1024 .f32 :=
  View.ld xs1 (Rect.unit (s := S8x8192) (k0_off2 i) S1x1024.size (k0_off2_inb i))

/-- At the start of a grid row the first carried buffer is filled with the squared row norms of the point's block. -/
theorem norms_first (c : Dev nD) (i : grid0.Coords) (arg2 : Memref sig .tc .vmem S1024x64 .f32) (harg2 : arg2.IsWhole) (arg3 : Memref sig .tc .vmem S8192x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S8x8192 .f32) (harg6 : arg6.IsWhole) (hc0 : cond0_0 i)
    (x0 : Vec F S1024x64 .f32) (x1 : Vec F S8192x64 .f32) :
    sout0_A_0 c i arg2 harg2 arg3 harg3 arg4 harg4 arg5 harg5 arg6 harg6 hc0 x0 x1 = k0_pay1 x0 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_run_names
  rw [View.canon_unit_zero zero_offsets]
  simp only [View.readAt_eq_ld, harg2.read_unread, View.ld_unit_zero (S := S1024x64) zero_offsets]

/-- … and the second with the squared row norms of the whole second argument. -/
theorem norms_second (c : Dev nD) (i : grid0.Coords) (arg2 : Memref sig .tc .vmem S1024x64 .f32) (harg2 : arg2.IsWhole) (arg3 : Memref sig .tc .vmem S8192x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S8x8192 .f32) (harg6 : arg6.IsWhole) (hc0 : cond0_0 i)
    (x0 : Vec F S1024x64 .f32) (x1 : Vec F S8192x64 .f32) :
    sout0_A_1 c i arg2 harg2 arg3 harg3 arg4 harg4 arg5 harg5 arg6 harg6 hc0 x0 x1 = k0_pay2 x1 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_run_names
  rw [View.canon_unit_zero zero_offsets]
  simp only [View.readAt_eq_ld, harg3.read_unread, View.ld_unit_zero (S := S8192x64) zero_offsets]

/-- The output block at the start of a grid row: the carried values are the ones just stored. -/
theorem block_first (c : Dev nD) (i : grid0.Coords) (arg2 : Memref sig .tc .vmem S1024x64 .f32) (harg2 : arg2.IsWhole) (arg3 : Memref sig .tc .vmem S8192x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S8x8192 .f32) (harg6 : arg6.IsWhole) (hc0 : cond0_0 i)
    (x0 : Vec F S1024x64 .f32) (x1 : Vec F S8192x64 .f32) :
    out0_A_2 c i arg2 harg2 arg3 harg3 arg4 harg4 arg5 harg5 arg6 harg6 hc0 x0 x1 = k0_pay3 x0 (rowsOf i x1) (stretchOf i (k0_pay2 x1)) (k0_pay1 x0) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_run_names
  rw [View.canon_unit_zero zero_offsets, View.readAt_writes_junk_eq_canon, View.canon_unit_zero zero_offsets,
    View.readCov_unit_zero _ zero_offsets]
  simp only [View.readAt_eq_ld, harg2.read_unread, harg3.read_unread, View.ld_unit_zero (S := S1024x64) zero_offsets,
    View.ld_unit_zero (S := S8192x64) zero_offsets]
  rfl

/-- The output block at any other point: the carried values are what the point before left. -/
theorem block_later (c : Dev nD) (i : grid0.Coords) (arg2 : Memref sig .tc .vmem S1024x64 .f32) (harg2 : arg2.IsWhole) (arg3 : Memref sig .tc .vmem S8192x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S8x8192 .f32) (harg6 : arg6.IsWhole) (hc0 : ¬cond0_0 i)
    (x0 : Vec F S1024x64 .f32) (x1 : Vec F S8192x64 .f32) (xs0 : Vec F S1024x1 .f32) (xs1 : Vec F S8x8192 .f32) :
    out0_B_2 c i arg2 harg2 arg3 harg3 arg4 harg4 arg5 harg5 arg6 harg6 hc0 x0 x1 xs0 xs1 = k0_pay3 x0 (rowsOf i x1) (stretchOf i xs1) xs0 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_run_names
  rw [View.canon_unit_zero zero_offsets]
  simp only [View.readAt_eq_ld, harg2.read_unread, harg3.read_unread, harg5.read_unread, harg6.read_unread,
    View.ld_unit_zero (S := S1024x64) zero_offsets, View.ld_unit_zero (S := S1024x1) zero_offsets]

end Cert.RbfPieces

end
-- ==== Proof.RbfPayload.lean ====
/-
  The body's three stored values, read at an index at the ideal values.

  `k0_pay1` of a block of 1024 rows is, at row `p` of its one column, the sum over the 64 coordinates of the squares of
  row `p`: a product, a sum along the rows, and the vector of sums kept as a column. `k0_pay2` of the whole second
  argument is, at any of its 8 rows and at column `q`, the same sum for row `q`: the column of sums is transposed to a
  row and repeated. `k0_pay3` at `(p, q)` is the specification's `rbf` of the column entry `p`, the row entry `q` and the
  inner product of row `p` of one block with row `q` of the other: the matrix product contracts the coordinate axis of
  both operands into a zero accumulator, the change of float format before it is the identity at the ideal values, and
  the rest is entrywise.
-/
import proofs.«172381_j58720792871618_2_alg».proof.Proof.Gen.KernelIdeal.Skeleton
import proofs.«172381_j58720792871618_2_alg».proof.Proof.RbfSpec
import Idealize.ShloMosaic.Lib.Pipeline.Value
import Idealize.ShloMosaic.Lib.ValueIdx
import Idealize.ShloMosaic.PureOps.Ideal.Laws

noncomputable section

namespace Cert.RbfPayload

open Cert.KernelIdeal Cert.KernelIdeal.Gen Idealize.ShloMosaic Idealize.ShloMosaic.ValueIdx Cert.RbfSpec

/-- The squared row norms of a block, kept as a column. -/
theorem pay1_apply (x0 : FVec Ideal S1024x64 .f32) (p : Fin 1024) (u : Fin 1) :
    k0_pay1 (F := Ideal) x0 (ix2 p u) = ∑ k : Fin 64, x0 (ix2 p k) * x0 (ix2 p k) := by
  unfold k0_pay1
  dsimp only
  refine (congrFun (shapeCast_self _ _) _).trans ?_
  refine (shapeCast_apply _ shapeCasts_S1024_S1024x1 (ix2 p u) (ix1 p) ?_).trans ?_
  · rw [Shape.rowMajor_val_one, Shape.rowMajor_val_two]
    show p.val = p.val * 1 + u.val
    have hu := u.isLt
    omega
  refine (Ideal.multiReduction_add_single _ _ reduces_S1024x64_S1024 _ _ (ix1 p)).trans ?_
  refine Finset.sum_congr rfl fun k _ => ?_
  have e : reduces_S1024x64_S1024.lift (ix1 p) k = ix2 p k :=
    funext fun a => Fin.ext (by match a with | ⟨0, _⟩ => rfl | ⟨1, _⟩ => rfl)
  rw [e]
  rfl

/-- The squared row norms of the whole second argument, along each of 8 rows. -/
theorem pay2_apply (x1 : FVec Ideal S8192x64 .f32) (r : Fin 8) (q : Fin 8192) :
    k0_pay2 (F := Ideal) x1 (ix2 r q) = ∑ k : Fin 64, x1 (ix2 q k) * x1 (ix2 q k) := by
  unfold k0_pay2
  dsimp only
  refine (congrFun (shapeCast_self _ _) _).trans ?_
  refine (broadcastTo_apply _ broadcasts_S1x8192_S8x8192 (ix2 r q) (ix2 (0 : Fin 1) q) (fun a => ?_)).trans ?_
  · match a with
    | ⟨0, _⟩ => show 0 = if (1 : Nat) = 1 then 0 else r.val; rw [if_pos rfl]
    | ⟨1, _⟩ => show q.val = if (8192 : Nat) = 1 then 0 else q.val; rw [if_neg (by decide)]
  refine (congrFun (shapeCast_self _ _) _).trans ?_
  refine (transpose_apply _ _ transposes_S8192x1_p1_0_S1x8192 (ix2 (0 : Fin 1) q) (ix2 q (0 : Fin 1)) (fun b => ?_)).trans ?_
  · match b with
    | ⟨0, _⟩ => rfl
    | ⟨1, _⟩ => rfl
  refine (shapeCast_apply _ shapeCasts_S8192_S8192x1 (ix2 q (0 : Fin 1)) (ix1 q) ?_).trans ?_
  · rw [Shape.rowMajor_val_one, Shape.rowMajor_val_two]
    show q.val = q.val * 1 + 0
    omega
  refine (Ideal.multiReduction_add_single _ _ reduces_S8192x64_S8192 _ _ (ix1 q)).trans ?_
  refine Finset.sum_congr rfl fun k _ => ?_
  have e : reduces_S8192x64_S8192.lift (ix1 q) k = ix2 q k :=
    funext fun a => Fin.ext (by match a with | ⟨0, _⟩ => rfl | ⟨1, _⟩ => rfl)
  rw [e]
  rfl

/-- The left operand's index of the product at `(p, q)` and contraction coordinate `k` is `(p, k)`. -/
theorem lhs_row (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl

/-- The right operand's is `(q, k)`: its rows are contracted too. -/
theorem rhs_row (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

/-- The matrix product into the zero accumulator, at `(p, q)`: the inner product of row `p` and row `q`. -/
theorem inner_apply (x0 x7 : FVec Ideal S1024x64 .f32) (p q : Fin 1024) :
    matmul (F := Ideal) dot_S1024x64_S1024x64_S1024x1024_1_1_0_0_n_n none (truncf .bf16 x0 bitsLt_bf16_f32) (truncf .bf16 x7 bitsLt_bf16_f32)
        (constant S1024x1024 .f32 0x00000000#32) (ix2 p q)
      = ∑ k : Fin 64, x0 (ix2 p k) * x7 (ix2 q k) := by
  refine (Ideal.matmul_constant_zero_apply dot_S1024x64_S1024x64_S1024x1024_1_1_0_0_n_n none _ _ (ix2 p q)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k :=
    funext fun a => Fin.ext (by
      match a with
      | ⟨0, _⟩ => exact lhs_row _ _
      | ⟨1, _⟩ => exact (dot_S1024x64_S1024x64_S1024x1024_1_1_0_0_n_n.lhsIdx_val_of_single rfl _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k :=
    funext fun a => Fin.ext (by
      match a with
      | ⟨0, _⟩ => exact rhs_row _ _
      | ⟨1, _⟩ => exact (dot_S1024x64_S1024x64_S1024x1024_1_1_0_0_n_n.rhsIdx_val_of_single rfl _ _).trans hk)
  show x0 _ * x7 _ = _
  rw [el, er]

/-- A column repeated across 1024 columns, at `(p, q)`: its entry `p`. -/
theorem column_apply (x13 : FVec Ideal S1024x1 .f32) (p q : Fin 1024) :
    broadcastTo S1024x1024 x13 broadcasts_S1024x1_S1024x1024 (ix2 p q) = x13 (ix2 p (0 : Fin 1)) :=
  broadcastTo_apply _ _ (ix2 p q) (ix2 p (0 : Fin 1)) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- A row repeated down 1024 rows, at `(p, q)`: its entry `q`. -/
theorem row_apply (x12 : FVec Ideal S1x1024 .f32) (p q : Fin 1024) :
    broadcastTo S1024x1024 x12 broadcasts_S1x1024_S1024x1024 (ix2 p q) = x12 (ix2 (0 : Fin 1) q) :=
  broadcastTo_apply _ _ (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- The output block's entry `(p, q)`. -/
theorem pay3_apply (x0 x7 : FVec Ideal S1024x64 .f32) (x12 : FVec Ideal S1x1024 .f32) (x13 : FVec Ideal S1024x1 .f32)
    (p q : Fin 1024) :
    k0_pay3 (F := Ideal) x0 x7 x12 x13 (ix2 p q)
      = rbf (x13 (ix2 p (0 : Fin 1))) (x12 (ix2 (0 : Fin 1) q)) (∑ k : Fin 64, x0 (ix2 p k) * x7 (ix2 q k)) := by
  unfold rbf
  rw [← column_apply x13 p q, ← row_apply x12 p q, ← inner_apply x0 x7 p q]
  rfl

end Cert.RbfPayload

end
-- ==== Proof.RbfBlocks.lean ====
/-
  Every output block is a block of the kernel matrix.

  The 64 grid points run in row-major order over an 8 × 8 grid: point `t` has row coordinate `t / 8` and column
  coordinate `t % 8`. Its block of the first argument is rows `1024·(t/8) …` of it, its block of the second argument
  is the whole of it, and its output block is the tile `(t/8, t%8)` of the result.

  The two carried buffers are filled at the first point of each grid row and kept by the seven points after it. So,
  by induction along the run, after EVERY point `t` the first holds the squared norms of rows `1024·(t/8) + p` of the
  first argument (the grid row has not changed since they were stored) and the second the squared norms of all rows
  of the second argument, on each of its 8 rows. Reading the output block's arithmetic at `(p, q)` with these contents
  gives the specification's entry at `(1024·(t/8) + p, 1024·(t%8) + q)`.
-/
import proofs.«172381_j58720792871618_2_alg».proof.Proof.Gen.KernelIdeal.Value
import proofs.«172381_j58720792871618_2_alg».proof.Proof.RbfSpec
import proofs.«172381_j58720792871618_2_alg».proof.Proof.RbfPieces
import proofs.«172381_j58720792871618_2_alg».proof.Proof.RbfPayload

set_option maxRecDepth 16384

noncomputable section

namespace Cert.RbfBlocks

open Cert.KernelIdeal Cert.KernelIdeal.Gen Cert.KernelIdeal.Value Idealize.ShloMosaic Idealize.ShloMosaic.TcCoe Idealize.SL.Sem
open Idealize.ShloMosaic.ValueIdx Cert.RbfSpec Cert.RbfPieces Cert.RbfPayload

variable (m : (ℓ : Loc nD τ sig) → Buf (Elt Ideal) ℓ)

/-- Row `q` of tile `b` of the eight tiles of 1024 rows. -/
def tileRow (b : Fin 8) (q : Fin 1024) : Fin 8192 :=
  ⟨1024 * b.val + q.val, by have := b.isLt; have := q.isLt; omega⟩

/-- The grid has 64 points. -/
theorem points : cfg0.N = 64 := N_0

/-- A point's row coordinate. -/
def rowTile (t : Fin cfg0.N) : Fin 8 := ⟨t.val / 8, by have := lt_of_lt_of_eq t.isLt points; omega⟩
/-- A point's column coordinate. -/
def colTile (t : Fin cfg0.N) : Fin 8 := ⟨t.val % 8, Nat.mod_lt _ (by decide)⟩

/-- The printed index maps and the body's own column coordinate, decided over the grid. -/
theorem grid_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ (grid0.coords t (1 : Fin 2)).val = t.val % 8 :=
  (by decide +kernel : ∀ t : Fin grid0.N, _)

/-! ## What a point reads -/

/-- The 1024 rows of the second argument a point with column coordinate `b` slices: rows `1024·b + q`. -/
theorem rows_apply (i : grid0.Coords) (x1 : FVec Ideal S8192x64 .f32) (b : Fin 8) (hb : (i 1).val = b.val)
    (q : Fin 1024) (k : Fin 64) : rowsOf (F := Ideal) i x1 (ix2 q k) = x1 (ix2 (tileRow b q) k) := by
  show x1 ((Rect.unit (s := S8192x64) (k0_off1 i) S1024x64.size (k0_off1_inb i)).idx (ix2 q k)) = _
  refine congrArg x1 (funext fun a => Fin.ext ?_)
  have e := k0_off1_eq i
  match a with
  | ⟨0, _⟩ =>
    show k0_off1 i 0 + 1 * q.val = 1024 * b.val + q.val
    rw [e]
    show 1024 * (i 1).val + 1 * q.val = 1024 * b.val + q.val
    omega
  | ⟨1, _⟩ =>
    show k0_off1 i 1 + 1 * k.val = k.val
    rw [e]
    show 0 + 1 * k.val = k.val
    omega

/-- The stretch of the carried row of norms it slices: columns `1024·b + q` of row 0. -/
theorem stretch_apply (i : grid0.Coords) (xs1 : FVec Ideal S8x8192 .f32) (b : Fin 8) (hb : (i 1).val = b.val)
    (q : Fin 1024) : stretchOf (F := Ideal) i xs1 (ix2 (0 : Fin 1) q) = xs1 (ix2 (0 : Fin 8) (tileRow b q)) := by
  show xs1 ((Rect.unit (s := S8x8192) (k0_off2 i) S1x1024.size (k0_off2_inb i)).idx (ix2 (0 : Fin 1) q)) = _
  refine congrArg xs1 (funext fun a => Fin.ext ?_)
  have e := k0_off2_eq i
  match a with
  | ⟨0, _⟩ =>
    show k0_off2 i 0 + 1 * 0 = 0
    rw [e]
    rfl
  | ⟨1, _⟩ =>
    show k0_off2 i 1 + 1 * q.val = 1024 * b.val + q.val
    rw [e]
    show 1024 * (i 1).val + 1 * q.val = 1024 * b.val + q.val
    omega

/-- A point's block of the first argument is its tile of rows. -/
theorem blockA_apply (c : Dev nD) (t : Fin cfg0.N) (p : Fin 1024) (k : Fin 64) :
    iblk m c 0 t (ix2 p k) = V m c main_arg0 (ix2 (tileRow (rowTile t) p) k) := by
  obtain ⟨e0, e1, -⟩ := grid_facts t
  show V m c main_arg0 (((cfg0.win 0).blk t).view.emb (ix2 p k)) = _
  refine congrArg (V m c main_arg0) (funext fun a => Fin.ext ?_)
  match a with
  | ⟨0, _⟩ =>
    show win0_0.index t (0 : Fin 2) * 1024 + 1 * p.val = 1024 * (t.val / 8) + p.val
    omega
  | ⟨1, _⟩ =>
    show win0_0.index t (1 : Fin 2) * 64 + 1 * k.val = k.val
    omega

/-- A point's block of the second argument is all of it. -/
theorem blockB_apply (c : Dev nD) (t : Fin cfg0.N) (q : Fin 8192) (k : Fin 64) :
    iblk m c 1 t (ix2 q k) = V m c main_arg1 (ix2 q k) := by
  obtain ⟨-, -, e2, e3, -⟩ := grid_facts t
  show V m c main_arg1 (((cfg0.win 1).blk t).view.emb (ix2 q k)) = _
  refine congrArg (V m c main_arg1) (funext fun a => Fin.ext ?_)
  match a with
  | ⟨0, _⟩ =>
    show win0_1.index t (0 : Fin 2) * 8192 + 1 * q.val = q.val
    omega
  | ⟨1, _⟩ =>
    show win0_1.index t (1 : Fin 2) * 64 + 1 * k.val = k.val
    omega

/-! ## What the carried buffers hold -/

/-- At the first point of a grid row both are freshly stored. -/
theorem carried_first (c : Dev nD) (t : Fin cfg0.N) (h0 : t.val % 8 = 0) :
    (outsAt0 m c t.val t.isLt).2.1 = k0_pay1 (F := Ideal) (iblk m c 0 t)
    ∧ (outsAt0 m c t.val t.isLt).2.2 = k0_pay2 (F := Ideal) (iblk m c 1 t) := by
  rw [outsAt0_A m c t h0]
  dsimp only
  exact ⟨norms_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t),
    norms_second (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)⟩

/-- At any other point both are what the point before left. -/
theorem carried_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  dsimp only
  exact ⟨rfl, rfl⟩

/-- After every point: the squared norms of the rows of the point's grid row, and of all rows of the second argument. -/
theorem carried (c : Dev nD) : ∀ (n : ℕ) (hn : n < cfg0.N),
    (∀ (p : Fin 1024) (u : Fin 1), (outsAt0 m c n hn).2.1 (ix2 p u)
        = sqnorm (V m c main_arg0) (tileRow (rowTile ⟨n, hn⟩) p))
    ∧ (∀ (r : Fin 8) (q : Fin 8192), (outsAt0 m c n hn).2.2 (ix2 r q) = sqnorm (V m c main_arg1) q) := by
  intro n
  induction n with
  | zero =>
    intro hn
    obtain ⟨e1, e2⟩ := carried_first m c ⟨0, hn⟩ rfl
    refine ⟨fun p u => ?_, fun r q => ?_⟩
    · refine (congrFun e1 _).trans ((pay1_apply (iblk m c 0 ⟨0, hn⟩) p u).trans ?_)
      exact Finset.sum_congr rfl fun k _ => by rw [blockA_apply m c ⟨0, hn⟩ p k]
    · refine (congrFun e2 _).trans ((pay2_apply (iblk m c 1 ⟨0, hn⟩) r q).trans ?_)
      exact Finset.sum_congr rfl fun k _ => by rw [blockB_apply m c ⟨0, hn⟩ q k]
  | succ n ih =>
    intro hn
    by_cases h0 : (n + 1) % 8 = 0
    · obtain ⟨e1, e2⟩ := carried_first m c ⟨n + 1, hn⟩ h0
      refine ⟨fun p u => ?_, fun r q => ?_⟩
      · refine (congrFun e1 _).trans ((pay1_apply (iblk m c 0 ⟨n + 1, hn⟩) p u).trans ?_)
        exact Finset.sum_congr rfl fun k _ => by rw [blockA_apply m c ⟨n + 1, hn⟩ p k]
      · refine (congrFun e2 _).trans ((pay2_apply (iblk m c 1 ⟨n + 1, hn⟩) r q).trans ?_)
        exact Finset.sum_congr rfl fun k _ => by rw [blockB_apply m c ⟨n + 1, hn⟩ q k]
    · obtain ⟨e1, e2⟩ := carried_later m c ⟨n + 1, hn⟩ h0
      obtain ⟨i1, i2⟩ := ih (Nat.lt_of_succ_lt hn)
      refine ⟨fun p u => ?_, fun r q => ?_⟩
      · refine (congrFun e1 _).trans ((i1 p u).trans (congrArg (sqnorm (V m c main_arg0)) (Fin.ext ?_)))
        show 1024 * (n / 8) + p.val = 1024 * ((n + 1) / 8) + p.val
        omega
      · exact (congrFun e2 _).trans (i2 r q)

/-! ## The output block -/

/-- What a point leaves in its output block: the body's arithmetic of its two blocks and the carried buffers as they
    are after the point (at the first point of a grid row they were stored before they are read; later they are
    unchanged). -/
theorem block_eq (c : Dev nD) (t : Fin cfg0.N) :
    (outsAt0 m c t.val t.isLt).1
      = k0_pay3 (F := Ideal) (iblk m c 0 t) (rowsOf (F := Ideal) (grid0.coords t) (iblk m c 1 t))
          (stretchOf (F := Ideal) (grid0.coords t) (outsAt0 m c t.val t.isLt).2.2) (outsAt0 m c t.val t.isLt).2.1 := by
  by_cases h0 : t.val % 8 = 0
  · obtain ⟨e1, e2⟩ := carried_first m c t h0
    rw [e1, e2, outsAt0_A m c t h0]
    dsimp only
    exact block_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)
  · obtain ⟨e1, e2⟩ := carried_later m c t h0
    rw [e1, e2, outsAt0_B m c t h0]
    dsimp only
    exact block_later (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2

/-- The body's arithmetic at `(p, q)`, for ANY four values that read as follows — a block that is tile `a` of the rows of
    `A`, all of `B`, a column holding the squared norms of that tile's rows and a buffer holding the squared norms of
    `B`'s rows on every row —, sliced at column coordinate `b`: the kernel matrix's entry at `(1024·a + p, 1024·b + q)`. -/
theorem entry_of (x0 : FVec Ideal S1024x64 .f32) (x1 : FVec Ideal S8192x64 .f32) (s1 : FVec Ideal S8x8192 .f32)
    (s0 : FVec Ideal S1024x1 .f32) (i : grid0.Coords) (A B : Pts) (a b : Fin 8) (hb : (i 1).val = b.val)
    (hx0 : ∀ (p : Fin 1024) (k : Fin 64), x0 (ix2 p k) = A (ix2 (tileRow a p) k))
    (hx1 : ∀ (q : Fin 8192) (k : Fin 64), x1 (ix2 q k) = B (ix2 q k))
    (hs0 : ∀ (p : Fin 1024) (u : Fin 1), s0 (ix2 p u) = sqnorm A (tileRow a p))
    (hs1 : ∀ (r : Fin 8) (q : Fin 8192), s1 (ix2 r q) = sqnorm B q) (p q : Fin 1024) :
    k0_pay3 (F := Ideal) x0 (rowsOf (F := Ideal) i x1) (stretchOf (F := Ideal) i s1) s0 (ix2 p q)
      = G A B (ix2 (tileRow a p) (tileRow b q)) := by
  rw [G_apply]
  refine (pay3_apply x0 (rowsOf (F := Ideal) i x1) (stretchOf (F := Ideal) i s1) s0 p q).trans ?_
  rw [hs0 p 0, stretch_apply i s1 b hb q, hs1 0 _]
  refine congrArg (rbf _ _) (Finset.sum_congr rfl fun k _ => ?_)
  rw [rows_apply i x1 b hb q k, hx0 p k, hx1 _ k]

/-- Entry `(p, q)` of the block point `t` leaves is the kernel matrix's entry at row `1024·(t/8) + p`, column
    `1024·(t%8) + q`. -/
theorem entry (c : Dev nD) (t : Fin cfg0.N) (p q : Fin 1024) :
    (outsAt0 m c t.val t.isLt).1 (ix2 p q)
      = G (V m c main_arg0) (V m c main_arg1) (ix2 (tileRow (rowTile t) p) (tileRow (colTile t) q)) := by
  have hc : (grid0.coords t (1 : Fin 2)).val = (colTile t).val := (grid_facts t).2.2.2.2.2.2
  obtain ⟨hS0, hS1⟩ := carried m c t.val t.isLt
  refine (congrFun (block_eq m c t) _).trans ?_
  exact entry_of (iblk m c 0 t) (iblk m c 1 t) (outsAt0 m c t.val t.isLt).2.2 (outsAt0 m c t.val t.isLt).2.1
    (grid0.coords t) (V m c main_arg0) (V m c main_arg1) (rowTile t) (colTile t) hc
    (blockA_apply m c t) (blockB_apply m c t) hS0 hS1 p q

end Cert.RbfBlocks

end
-- ==== Proof.RbfValue.lean ====
/-
  After the kernel's run the result array is the kernel matrix.

  Point `t` writes its output block back to tile `(t/8, t%8)` of the result, and that block is the same tile of the
  kernel matrix of the two arguments. The 64 tiles of 1024 × 1024 cover the 8192 × 8192 result — index `(r, s)` lies in
  the tile of the point `8·(r/1024) + s/1024` — and every point writes back, so the result array ends as the kernel matrix,
  and the two arguments end as they were.
-/
import proofs.«172381_j58720792871618_2_alg».proof.Proof.RbfBlocks

set_option maxRecDepth 16384

noncomputable section

namespace Cert.RbfValue

open Cert.KernelIdeal Cert.KernelIdeal.Gen Cert.KernelIdeal.Value Idealize.ShloMosaic Idealize.ShloMosaic.TcCoe Idealize.SL.Sem
open Idealize.ShloMosaic.ValueIdx Cert.RbfSpec Cert.RbfBlocks
open Idealize.ShloMosaic.Pipeline (Dat)

variable (m : (ℓ : Loc nD τ sig) → Buf (Elt Ideal) ℓ) (ρ : Dev nD → PrngReg)

/-- What point `t` writes back is block `t` of the kernel matrix of the arguments as the region finds them. -/
theorem flushed_eq (c : Dev nD) (t : Fin cfg0.N) :
    (dats m 0 c).flushed 2 t
      = ((cfg0.win 2).blk t).view.read (Elt Ideal) (G (V m c main_arg0) (V m c main_arg1)) := by
  rw [flushed2 m c t]
  funext j
  obtain ⟨p, q, rfl⟩ : ∃ (p q : Fin 1024), j = ix2 p q := ⟨j 0, j 1, eq_ix2 j⟩
  show (outsAt0 m c t.val t.isLt).1 (ix2 p q)
    = G (V m c main_arg0) (V m c main_arg1) (((cfg0.win 2).blk t).view.emb (ix2 p q))
  rw [entry m c t p q]
  obtain ⟨-, -, -, -, e4, e5, -⟩ := grid_facts t
  refine congrArg (G (V m c main_arg0) (V m c main_arg1)) (funext fun a => Fin.ext ?_)
  match a with
  | ⟨0, _⟩ =>
    show 1024 * (t.val / 8) + p.val = win0_2.index t (0 : Fin 2) * 1024 + 1 * p.val
    omega
  | ⟨1, _⟩ =>
    show 1024 * (t.val % 8) + q.val = win0_2.index t (1 : Fin 2) * 1024 + 1 * q.val
    omega

/-- An index of the result is in point `t`'s tile iff each coordinate is in the tile's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the tile of some point, and every point writes back. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have ht : 8 * ((i 0).val / 1024) + (i 1).val / 1024 < cfg0.N :=
    lt_of_lt_of_eq (show 8 * ((i 0).val / 1024) + (i 1).val / 1024 < 64 by omega) points.symm
  obtain ⟨-, -, -, -, e4, e5, -⟩ := grid_facts ⟨8 * ((i 0).val / 1024) + (i 1).val / 1024, ht⟩
  refine ⟨⟨8 * ((i 0).val / 1024) + (i 1).val / 1024, ht⟩, flush0_2 _, ?_⟩
  rw [mem_blk]
  intro a
  match a with
  | ⟨0, _⟩ =>
    show win0_2.index ⟨8 * ((i 0).val / 1024) + (i 1).val / 1024, ht⟩ (0 : Fin 2) * 1024 ≤ (i 0).val
      ∧ (i 0).val < win0_2.index ⟨8 * ((i 0).val / 1024) + (i 1).val / 1024, ht⟩ (0 : Fin 2) * 1024 + 1024
    rw [e4]
    show (8 * ((i 0).val / 1024) + (i 1).val / 1024) / 8 * 1024 ≤ (i 0).val
      ∧ (i 0).val < (8 * ((i 0).val / 1024) + (i 1).val / 1024) / 8 * 1024 + 1024
    omega
  | ⟨1, _⟩ =>
    show win0_2.index ⟨8 * ((i 0).val / 1024) + (i 1).val / 1024, ht⟩ (1 : Fin 2) * 1024 ≤ (i 1).val
      ∧ (i 1).val < win0_2.index ⟨8 * ((i 0).val / 1024) + (i 1).val / 1024, ht⟩ (1 : Fin 2) * 1024 + 1024
    rw [e5]
    show (8 * ((i 0).val / 1024) + (i 1).val / 1024) % 8 * 1024 ≤ (i 1).val
      ∧ (i 1).val < (8 * ((i 0).val / 1024) + (i 1).val / 1024) % 8 * 1024 + 1024
    omega

/-- The result array after the run. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

/-- Every weakly fair execution of the idealized kernel terminates with the result at the kernel matrix of the
    arguments as launched, and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.RbfValue

end
-- ==== Proof.lean ====
/-
  The Gaussian (radial basis function) kernel matrix of two sets of 8192 points in 64 dimensions: a tiled kernel
  against its plain reference, equal on the extended reals.

  Both programs compute, for every pair `(n, m)`, `1 · exp (-(1/2) · max (‖a_n‖² + ‖b_m‖² - 2 · ⟨a_n, b_m⟩) 0)`, with the
  same four float constants and the same order of operations on the three sums. The kernel does it tile by tile over
  an 8 × 8 grid: it takes the inner products of a tile from one matrix product of 1024 rows of each argument (whose
  conversion to a shorter float format is the identity at the ideal values), and keeps the squared norms in two buffers
  it fills at the first tile of each grid row and carries along the row. The reference does it on whole arrays. Nothing
  is rearranged between the two, so no finiteness is used: the claim holds entry by entry for all extended reals.

  - `RbfSpec`: the kernel matrix `G` as one function of the two arguments.
  - `RbfRef`: the reference's result is `G`.
  - `RbfPieces`, `RbfPayload`: what one grid point stores, and those values read at an index.
  - `RbfBlocks`: what the carried buffers hold after each point (by induction along the run), hence each output
    block is its tile of `G`.
  - `RbfValue`: the tiles cover the result, so the kernel's run ends with `G`.
  The three frames are the generated ones (the reference's is its run with the result dropped); the idealization
  rewrote nothing, so there is nothing to preserve.
-/
import proofs.«172381_j58720792871618_2_alg».proof.Defs
import proofs.«172381_j58720792871618_2_alg».proof.Proof.Gen.Kernel
import proofs.«172381_j58720792871618_2_alg».proof.Proof.Gen.Kernel.Skeleton
import proofs.«172381_j58720792871618_2_alg».proof.Proof.Gen.Kernel.Launch
import proofs.«172381_j58720792871618_2_alg».proof.Proof.Gen.Kernel.Points
import proofs.«172381_j58720792871618_2_alg».proof.Proof.Gen.Kernel.Frame
import proofs.«172381_j58720792871618_2_alg».proof.Proof.Gen.KernelIdeal
import proofs.«172381_j58720792871618_2_alg».proof.Proof.Gen.KernelIdeal.Skeleton
import proofs.«172381_j58720792871618_2_alg».proof.Proof.Gen.KernelIdeal.Launch
import proofs.«172381_j58720792871618_2_alg».proof.Proof.Gen.KernelIdeal.Points
import proofs.«172381_j58720792871618_2_alg».proof.Proof.Gen.KernelIdeal.Frame
import proofs.«172381_j58720792871618_2_alg».proof.Proof.Gen.ReferenceIdeal
import proofs.«172381_j58720792871618_2_alg».proof.Proof.Gen.Pre_finite_inputs
import proofs.«172381_j58720792871618_2_alg».proof.Proof.Gen.KernelIdeal.Value
import proofs.«172381_j58720792871618_2_alg».proof.Proof.Gen.ReferenceIdeal.Run
import proofs.«172381_j58720792871618_2_alg».proof.Proof.Gen.ReferenceIdeal.Read
import proofs.«172381_j58720792871618_2_alg».proof.Proof.RbfRef
import proofs.«172381_j58720792871618_2_alg».proof.Proof.RbfValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- From memories that agree on the two arguments, both programs end with the kernel matrix of those arguments. -/
theorem algebraic : Cert.algebraic_KernelIdeal_ReferenceIdeal := by
  intro m ρ m' ρ' _ hagree
  refine ⟨fun c => Cert.RbfSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RbfRef.ref_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
